-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x8192 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x8192 : Shape := ⟨2, ![8192, 8192]⟩
abbrev S2x8x128 : Shape := ⟨3, ![2, 8, 128]⟩
abbrev S128x8192 : Shape := ⟨2, ![128, 8192]⟩
abbrev S1x8x128 : Shape := ⟨3, ![1, 8, 128]⟩
abbrev S128x1 : Shape := ⟨2, ![128, 1]⟩
abbrev S128 : Shape := ⟨1, ![128]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x8x128, .f32⟩
  | .local _ .vmem, ⟨5, _⟩ => ⟨S1x8x128, .f32⟩
  | .local _ .vmem, ⟨6, _⟩ => ⟨S128x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v28 : BitVec 1 := Scalar.cmpi .eq arg1 c31_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.Cases.lean ====
/-
  What each control case of the kernel's body leaves behind, as the stored values themselves.

  At the first point of a core's run the body resets the carried column to zero and then adds the block's row sums:
  the column ends at the accumulating store's value over the zero column. At every later point it ends at that
  value over what the point before left. At the last point of the run the output tile ends at the final store's
  value of the column just written.
-/
import proofs.«123323_j25409026524030_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a run: the column ends at the block's row sums added to the zero column. -/
theorem column_first (c : Dev nD) (i : grid0.Coords) (a2 : Memref sig .tc .vmem S128x8192 .f32) (h2 : a2.IsWhole)
    (a3 : Memref sig .tc .vmem S128x8192 .f32) (h3 : a3.IsWhole) (a4 : Memref sig .tc .vmem S1x8x128 .f32) (h4 : a4.IsWhole)
    (a5 : Memref sig .tc .vmem S128x1 .f32) (h5 : a5.IsWhole) (hc0 : cond0_0 i) (hc1 : ¬cond0_1 i)
    (x0 x1 : Vec F S128x8192 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x1) hz2, View.readCov_unit_zero (S := S128x1) _ hz2]
  simp only [View.readAt_eq_ld, h2.read_unread, h3.read_unread, View.ld_unit_zero (S := S128x8192) hz2]

/-- A middle point: the column ends at the block's row sums added to what the point before left. -/
theorem column_middle (c : Dev nD) (i : grid0.Coords) (a2 : Memref sig .tc .vmem S128x8192 .f32) (h2 : a2.IsWhole)
    (a3 : Memref sig .tc .vmem S128x8192 .f32) (h3 : a3.IsWhole) (a4 : Memref sig .tc .vmem S1x8x128 .f32) (h4 : a4.IsWhole)
    (a5 : Memref sig .tc .vmem S128x1 .f32) (h5 : a5.IsWhole) (hc0 : ¬cond0_0 i) (hc1 : ¬cond0_1 i)
    (x0 x1 : Vec F S128x8192 .f32) (xs0 : Vec F S128x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread,
    View.ld_unit_zero (S := S128x8192) hz2, View.ld_unit_zero (S := S128x1) hz2]

/-- The last point of a run: the column, as at a middle point. -/
theorem column_last (c : Dev nD) (i : grid0.Coords) (a2 : Memref sig .tc .vmem S128x8192 .f32) (h2 : a2.IsWhole)
    (a3 : Memref sig .tc .vmem S128x8192 .f32) (h3 : a3.IsWhole) (a4 : Memref sig .tc .vmem S1x8x128 .f32) (h4 : a4.IsWhole)
    (a5 : Memref sig .tc .vmem S128x1 .f32) (h5 : a5.IsWhole) (hc0 : ¬cond0_0 i) (hc1 : cond0_1 i)
    (x0 x1 : Vec F S128x8192 .f32) (xs0 : Vec F S128x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread,
    View.ld_unit_zero (S := S128x8192) hz2, View.ld_unit_zero (S := S128x1) hz2]

/-- The last point of a run: the output tile ends at the final store's value of the column just written. -/
theorem tile_last (c : Dev nD) (i : grid0.Coords) (a2 : Memref sig .tc .vmem S128x8192 .f32) (h2 : a2.IsWhole)
    (a3 : Memref sig .tc .vmem S128x8192 .f32) (h3 : a3.IsWhole) (a4 : Memref sig .tc .vmem S1x8x128 .f32) (h4 : a4.IsWhole)
    (a5 : Memref sig .tc .vmem S128x1 .f32) (h5 : a5.IsWhole) (hc0 : ¬cond0_0 i) (hc1 : cond0_1 i)
    (x0 x1 : Vec F S128x8192 .f32) (xs0 : Vec F S128x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S128x1) _ hz2]
  simp only [View.readAt_eq_ld, h2.read_unread, h3.read_unread, h5.read_unread,
    View.ld_unit_zero (S := S128x8192) hz2, View.ld_unit_zero (S := S128x1) hz2]

end Cert.KernelIdeal.Cases

end
-- ==== Proof.Entry.lean ====
/-
  One entry's contribution to the loss, over the extended reals: `w · (½·w − ½·sign v)` for a weight `w` and a
  reference weight `v`. The one half is the same binary word in both programs; the reference spells the second
  one as `1 − ½`, which is `½` exactly. The kernel's `sign` — one with the sign bit of `v` where `|v| > 0`, else
  `v` itself — and the reference's are one function on every extended real.
-/
import Idealize.ShloMosaic.Lib.ValueIdx
import Idealize.ShloMosaic.PureOps.Ideal.Laws

noncomputable section

namespace Cert.Dale

open Idealize.ShloMosaic Idealize.ShloMosaic.ValueIdx

/-- One entry's contribution: `w · (½·w − ½·sign v)`. -/
def entry (w v : EReal) : EReal :=
  w * (Ideal.ofBits .f32 0x3F000000#32 * w - Ideal.ofBits .f32 0x3F000000#32 * Ideal.sign v)

/-- The word `0x3F000000` denotes one half. -/
theorem ofBits_half : Ideal.ofBits .f32 0x3F000000#32 = ((1 / 2 : ℝ) : EReal) := by
  simp [Ideal.ofBits, Ideal.ieee, -EReal.coe_mul]; norm_num

/-- The word `0x3F800000` denotes one. -/
theorem ofBits_one : Ideal.ofBits .f32 0x3F800000#32 = ((1 : ℝ) : EReal) := by
  simp [Ideal.ofBits, Ideal.ieee, -EReal.coe_mul]; norm_num

/-- One less one half is one half, on the words. -/
theorem one_sub_half :
    Ideal.ofBits .f32 0x3F800000#32 - Ideal.ofBits .f32 0x3F000000#32 = Ideal.ofBits .f32 0x3F000000#32 := by
  rw [ofBits_one, ofBits_half, ← EReal.coe_sub]; norm_num

/-- The reference's spelling of an entry, with its second coefficient `1 − ½`. -/
theorem ref_entry (w v : EReal) :
    w * (Ideal.ofBits .f32 0x3F000000#32 * w
        - (Ideal.ofBits .f32 0x3F800000#32 - Ideal.ofBits .f32 0x3F000000#32) * Ideal.sign v) = entry w v := by
  rw [one_sub_half]; rfl

/-- The kernel's spelling of an entry, elementwise over any shape: its `sign` is the select the sign-bit reading
    prints, which is `sign` at every extended real. -/
theorem kernel_entry {s : Shape} (x0 x1 : FVec Ideal s .f32) (i : s.Idx) :
    mulf x0 (subf (mulf (broadcast s (Scalar.ofBits .f32 0x3F000000#32)) x0)
      (mulf (broadcast s (Scalar.ofBits .f32 0x3F000000#32))
        (select (cmpf .ogt (absf x1) (broadcast s (Scalar.ofBits .f32 0x00000000#32)))
          (select (cmpf .olt x1 (constant s .f32 0x00000000#32)) (constant s .f32 0xBF800000#32)
            (constant s .f32 0x3F800000#32)) x1))) i
      = entry (x0 i) (x1 i) := by
  unfold entry
  rw [← Ideal.jnp_sign_eq_sign_f32 (x1 i)]
  rfl

end Cert.Dale

end
-- ==== Proof.Payload.lean ====
/-
  The three values the kernel's body stores, read at an index over the extended reals.

  The reset stores the zero column. Every point stores, into the 128-entry column it carries between points,
  that column plus the row sums of its block: row `r` gains the sum over the 8192 lanes of the entries'
  contributions. The last point of a core's run stores, at every position of the core's output tile, the sum of
  the carried column's 128 entries.
-/
import proofs.«123323_j25409026524030_2_alg».proof.Proof.Gen.KernelIdeal.Skeleton
import proofs.«123323_j25409026524030_2_alg».proof.Proof.Entry
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Dale

/-- The reset's column is zero at every entry. -/
theorem pay1_apply (y : S128x1.Idx) : k0_pay1 (F := Ideal) y = 0 := by
  unfold k0_pay1
  rw [shapeCast_self]
  exact Ideal.ofBits_zero_f32

/-- Row `r`'s lane `k`, as the lane reduction names it: the row index with the lane inserted. -/
theorem lift_row (h : S128x8192.Reduces [1] S128) (r : Fin 128) (k : Fin 8192) : h.lift (ix1 r) k = ix2 r k := by
  funext a; apply Fin.ext
  match a with
  | ⟨0, _⟩ => rfl
  | ⟨1, _⟩ => rfl

/-- The accumulating store at row `r`: what the column held there plus the row's sum of contributions. -/
theorem pay2_apply (x0 x1 : FVec Ideal S128x8192 .f32) (xs : FVec Ideal S128x1 .f32) (r : Fin 128) (z : Fin 1) :
    k0_pay2 (F := Ideal) x0 x1 xs (ix2 r z)
      = xs (ix2 r z) + ∑ k : Fin 8192, entry (x0 (ix2 r k)) (x1 (ix2 r k)) := by
  unfold k0_pay2
  dsimp only
  rw [shapeCast_self, addf_apply]
  congr 1
  refine (shapeCast_apply _ shapeCasts_S128_S128x1 (ix2 r z) (ix1 r) ?_).trans ?_
  · rw [Shape.rowMajor_val_one, Shape.rowMajor_val_two]
    show r.val = r.val * 1 + z.val
    omega
  refine (Ideal.multiReduction_add_single _ 0x00000000#32 reduces_S128x8192_S128 (.inl rfl) rfl (ix1 r)).trans ?_
  refine Finset.sum_congr rfl fun (k : Fin 8192) _ => ?_
  rw [lift_row]
  exact kernel_entry x0 x1 (ix2 r k)

/-- Entry `k` of the column, as the column reduction names it. -/
theorem lift_col (h : S128x1.Reduces [0] S1) (u : Fin 1) (k : Fin 128) : h.lift (ix1 u) k = ix2 k u := by
  funext a; apply Fin.ext
  match a with
  | ⟨0, _⟩ => rfl
  | ⟨1, _⟩ => rfl

/-- The final store: every position of the output tile holds the sum of the column's 128 entries. -/
theorem pay3_apply (v : FVec Ideal S128x1 .f32) (j : S1x8x128.Idx) :
    k0_pay3 (F := Ideal) v j = ∑ k : Fin 128, v (ix2 k (0 : Fin 1)) := by
  unfold k0_pay3
  dsimp only
  refine (broadcastTo_apply _ broadcasts_S1x1x1_S1x8x128 j (ix3 (0 : Fin 1) (0 : Fin 1) (0 : Fin 1)) (fun a => ?_)).trans ?_
  · match a with
    | ⟨0, _⟩ => rfl
    | ⟨1, _⟩ => rfl
    | ⟨2, _⟩ => rfl
  rw [shapeCast_self]
  refine (shapeCast_ab_1ab_apply _ shapeCasts_S1x1_S1x1x1 0 0 0).trans ?_
  refine (shapeCast_a_1a_apply _ shapeCasts_S1_S1x1 0 0).trans ?_
  refine (Ideal.multiReduction_add_single _ 0x00000000#32 reduces_S128x1_S1 (.inl rfl) rfl (ix1 (0 : Fin 1))).trans ?_
  refine Finset.sum_congr rfl fun (k : Fin 128) _ => ?_
  rw [lift_col]

end Cert.KernelIdeal.Pay

end
-- ==== Proof.SumLaws.lean ====
/-
  Sums over runs of consecutive naturals, in any commutative additive monoid.

  A sum over the first `m * n` naturals is the sum, over `m` runs, of each run's `n` terms; and the partial sum
  over a run of 32 — from the run's first index up to an index `n` inside it — starts at `f n` where `n` opens a
  run and grows by `f (n + 1)` where `n + 1` does not.
-/
import Idealize.ShloMosaic.Lib.ValueIdx

namespace Cert.Dale

open Finset

variable {M : Type*} [AddCommMonoid M]

/-- The first `m * n` naturals, cut into `m` runs of `n`. -/
theorem sum_range_mul (m n : ℕ) (f : ℕ → M) :
    ∑ R ∈ range (m * n), f R = ∑ b ∈ range m, ∑ r ∈ range n, f (b * n + r) := by
  induction m with
  | zero => simp
  | succ m ih => rw [Nat.succ_mul, sum_range_add, ih, sum_range_succ]

/-- Where `n` opens a run of 32, the partial sum of its run up to `n` is the one term `f n`. -/
theorem run_start (f : ℕ → M) (n : ℕ) (h : n % 32 = 0) :
    ∑ j ∈ range (n % 32 + 1), f (n / 32 * 32 + j) = f n := by
  have e : n / 32 * 32 = n := by omega
  rw [h, e, zero_add, sum_range_one, Nat.add_zero]

/-- Where `n + 1` does not open a run, the partial sum up to `n + 1` is the one up to `n` plus `f (n + 1)`. -/
theorem run_step (f : ℕ → M) (n : ℕ) (h : ¬(n + 1) % 32 = 0) :
    ∑ j ∈ range ((n + 1) % 32 + 1), f ((n + 1) / 32 * 32 + j)
      = ∑ j ∈ range (n % 32 + 1), f (n / 32 * 32 + j) + f (n + 1) := by
  have e1 : (n + 1) % 32 = n % 32 + 1 := by omega
  have e2 : (n + 1) / 32 = n / 32 := by omega
  have e3 : n / 32 * 32 + (n % 32 + 1) = n + 1 := by omega
  rw [e1, e2, sum_range_succ, e3]

/-- At a run's last index the partial sum is the whole run. -/
theorem run_full (f : ℕ → M) (n : ℕ) (h : n % 32 = 31) :
    ∑ j ∈ range (n % 32 + 1), f (n / 32 * 32 + j) = ∑ j ∈ range 32, f (n / 32 * 32 + j) := by
  rw [h]

end Cert.Dale
-- ==== Proof.Totals.lean ====
/-
  The loss as a sum of row totals, and the two cores' shares of it.

  The loss is the sum over every entry of the 8192 × 8192 arrays of that entry's contribution. Summed row by row it
  is the sum of 8192 row totals. Rows come in 64 blocks of 128, and the blocks in 2 runs of 32: core `i` adds, for
  each row-in-block `r`, the totals of row `r` of its 32 blocks, then adds those 128 numbers. Exchanging the two
  finite sums, the two cores' numbers add up to the loss. Only commutativity and associativity of the sum are used,
  which hold on all extended reals.
-/
import proofs.«123323_j25409026524030_2_alg».proof.Proof.Entry
import proofs.«123323_j25409026524030_2_alg».proof.Proof.SumLaws

noncomputable section

namespace Cert.Dale

open Idealize.ShloMosaic Idealize.ShloMosaic.ValueIdx Finset

/-- An 8192 × 8192 array of extended reals. -/
abbrev Arr : Type := (⟨2, ![8192, 8192]⟩ : Shape).Idx → EReal

/-- Row `R`'s total: the sum of its 8192 entries' contributions. -/
def rowTot (W V : Arr) (R : Fin 8192) : EReal := ∑ k : Fin 8192, entry (W (ix2 R k)) (V (ix2 R k))

/-- The same by a natural number, zero past the last row. -/
def rowTotN (W V : Arr) (R : ℕ) : EReal := if h : R < 8192 then rowTot W V ⟨R, h⟩ else 0

theorem rowTotN_of_lt (W V : Arr) (R : ℕ) (h : R < 8192) : rowTotN W V R = rowTot W V ⟨R, h⟩ := dif_pos h

/-- The loss: every entry's contribution, summed. -/
def total (W V : Arr) : EReal := ∑ i, entry (W i) (V i)

/-- The loss is the sum of the row totals. -/
theorem total_eq_rows (W V : Arr) : total W V = ∑ R ∈ range 8192, rowTotN W V R := by
  unfold total
  rw [sum_idx2, Finset.sum_range]
  refine Finset.sum_congr rfl fun R _ => ?_
  rw [rowTotN_of_lt W V R.val R.isLt]
  rfl

/-- Core `i`'s number: over the 128 rows-in-block, the totals of that row of the core's 32 blocks. -/
def coreTot (W V : Arr) (i : ℕ) : EReal :=
  ∑ r : Fin 128, ∑ j ∈ range 32, rowTotN W V ((i * 32 + j) * 128 + r.val)

/-- The two cores' numbers add up to the loss. -/
theorem cores_total (W V : Arr) : ∑ i : Fin 2, coreTot W V i.val = total W V := by
  rw [total_eq_rows, show range 8192 = range (64 * 128) from rfl, sum_range_mul,
    show range 64 = range (2 * 32) from rfl, sum_range_mul, Finset.sum_range]
  refine Finset.sum_congr rfl fun i _ => ?_
  unfold coreTot
  rw [← Finset.sum_range (fun r => ∑ j ∈ range 32, rowTotN W V ((i.val * 32 + j) * 128 + r)), Finset.sum_comm]

end Cert.Dale

end
-- ==== Proof.Accumulate.lean ====
/-
  The column a core carries through its run, in closed form, and the tile it writes at the run's end.

  Grid point `n` (of 64, in order) fetches rows `128·n … 128·n + 127` of both arrays; points `32·i … 32·i + 31` are core
  `i`'s run. After point `n` the carried column holds, at row-in-block `r`, the totals of row `r` of the blocks from
  the run's first up to `n`: the first point of a run starts it at that block's row total (the reset's zero added),
  every later point adds its block's. By induction on the point. At the run's last point the tile holds the sum of
  the column's 128 entries, the core's share of the loss.
-/
import proofs.«123323_j25409026524030_2_alg».proof.Proof.Cases
import proofs.«123323_j25409026524030_2_alg».proof.Proof.Payload
import proofs.«123323_j25409026524030_2_alg».proof.Proof.Totals

noncomputable section

namespace Cert.KernelIdeal.Acc

open Cert.KernelIdeal Cert.KernelIdeal.Gen Idealize.ShloMosaic Idealize.ShloMosaic.TcCoe Idealize.SL.Sem
open Idealize.ShloMosaic.ValueIdx Cert.Dale Finset

variable (m : (ℓ : Loc nD τ sig) → Buf (Elt Ideal) ℓ)

/-- The weights and the reference weights on core `c`, as the launch finds them. -/
abbrev wts (c : Dev nD) : Arr := m ((c : Thread nD τ).loc main_arg0)
abbrev refw (c : Dev nD) : Arr := m ((c : Thread nD τ).loc main_arg1)

/-- The printed index maps, decided once over the grid: both inputs' block at point `t` is row block `t`, the
    output's tile is tile `t / 32`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

theorem point_lt (t : Fin cfg0.N) : t.val < 64 := lt_of_lt_of_eq t.isLt (show cfg0.N = 64 from N_0)

/-- The weights' block at point `t`, at row-in-block `r` and lane `k`: the array at row `128·t + r`. -/
theorem wblock_apply (c : Dev nD) (t : Fin cfg0.N) (r : Fin 128) (k : Fin 8192) (h : t.val * 128 + r.val < 8192) :
    (iblk m c 0 t : FVec Ideal S128x8192 .f32) (ix2 r k) = wts m c (ix2 ⟨t.val * 128 + r.val, h⟩ k) := by
  obtain ⟨e0, e1, -⟩ := idx_facts t
  unfold iblk
  rw [View.read_apply]
  show V m c main_arg0 _ = m (c.tc.loc main_arg0) _
  rw [V_main_arg0]
  congr 1
  funext a; apply Fin.ext
  match a with
  | ⟨0, _⟩ => show win0_0.index t 0 * 128 + 1 * r.val = t.val * 128 + r.val; rw [e0]; omega
  | ⟨1, _⟩ => show win0_0.index t 1 * 8192 + 1 * k.val = k.val; rw [e1]; omega

/-- The reference weights' block likewise. -/
theorem rblock_apply (c : Dev nD) (t : Fin cfg0.N) (r : Fin 128) (k : Fin 8192) (h : t.val * 128 + r.val < 8192) :
    (iblk m c 1 t : FVec Ideal S128x8192 .f32) (ix2 r k) = refw m c (ix2 ⟨t.val * 128 + r.val, h⟩ k) := by
  obtain ⟨-, -, e0, e1, -⟩ := idx_facts t
  unfold iblk
  rw [View.read_apply]
  show V m c main_arg1 _ = m (c.tc.loc main_arg1) _
  rw [V_main_arg1]
  congr 1
  funext a; apply Fin.ext
  match a with
  | ⟨0, _⟩ => show win0_1.index t 0 * 128 + 1 * r.val = t.val * 128 + r.val; rw [e0]; omega
  | ⟨1, _⟩ => show win0_1.index t 1 * 8192 + 1 * k.val = k.val; rw [e1]; omega

/-- Row `r` of point `t`'s blocks sums to the total of row `128·t + r` of the arrays. -/
theorem block_row (c : Dev nD) (t : Fin cfg0.N) (r : Fin 128) :
    ∑ k : Fin 8192, entry ((iblk m c 0 t : FVec Ideal S128x8192 .f32) (ix2 r k)) ((iblk m c 1 t : FVec Ideal S128x8192 .f32) (ix2 r k))
      = rowTotN (wts m c) (refw m c) (t.val * 128 + r.val) := by
  have hN := point_lt t
  have h : t.val * 128 + r.val < 8192 := by omega
  rw [rowTotN_of_lt _ _ _ h]
  unfold rowTot
  refine Finset.sum_congr rfl fun k _ => ?_
  rw [wblock_apply m c t r k h, rblock_apply m c t r k h]

/-- The carried column after point `n`: at row-in-block `r`, the row totals of the run's blocks up to `n`. -/
def column (c : Dev nD) (n : ℕ) : FVec Ideal S128x1 .f32 := fun y =>
  ∑ j ∈ range (n % 32 + 1), rowTotN (wts m c) (refw m c) ((n / 32 * 32 + j) * 128 + (y 0).val)

/-- The accumulating store at point `t` over a column `xs`: `xs` plus the block's row totals. -/
theorem store_apply (c : Dev nD) (t : Fin cfg0.N) (xs : FVec Ideal S128x1 .f32) (r : Fin 128) (z : Fin 1) :
    k0_pay2 (F := Ideal) (iblk m c 0 t) (iblk m c 1 t) xs (ix2 r z)
      = xs (ix2 r z) + rowTotN (wts m c) (refw m c) (t.val * 128 + r.val) :=
  (Pay.pay2_apply (iblk m c 0 t) (iblk m c 1 t) xs r z).trans (congrArg (xs (ix2 r z) + ·) (block_row m c t r))

/-- What the carried column holds after point `n` is that closed form: by induction on the point, the three control
    cases giving the start of a run and the step inside one. -/
theorem column_eq (c : Dev nD) : ∀ (n : ℕ) (hn : n < cfg0.N), (outsAt0 m c n hn).2 = column m c n := by
  intro n
  induction n with
  | zero =>
    intro hn
    rw [outsAt0_A m c ⟨0, hn⟩ rfl (by show ¬(0 % 32 = 31); decide)]
    dsimp only
    refine (Cases.column_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) _ _ (iblk m c 0 ⟨0, hn⟩) (iblk m c 1 ⟨0, hn⟩)).trans ?_
    funext y
    obtain ⟨r, z, rfl⟩ : ∃ (r : Fin 128) (z : Fin 1), y = ix2 r z := ⟨y 0, y 1, eq_ix2 y⟩
    refine (store_apply m c ⟨0, hn⟩ _ r z).trans ?_
    rw [Pay.pay1_apply, zero_add]
    exact (run_start (fun p => rowTotN (wts m c) (refw m c) (p * 128 + r.val)) 0 rfl).symm
  | succ n ih =>
    intro hn
    by_cases h0 : (n + 1) % 32 = 0
    · have h1 : ¬(n + 1) % 32 = 31 := by omega
      rw [outsAt0_A m c ⟨n + 1, hn⟩ h0 h1]
      dsimp only
      refine (Cases.column_first c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩)).trans ?_
      funext y
      obtain ⟨r, z, rfl⟩ : ∃ (r : Fin 128) (z : Fin 1), y = ix2 r z := ⟨y 0, y 1, eq_ix2 y⟩
      refine (store_apply m c ⟨n + 1, hn⟩ _ r z).trans ?_
      rw [Pay.pay1_apply, zero_add]
      exact (run_start (fun p => rowTotN (wts m c) (refw m c) (p * 128 + r.val)) (n + 1) h0).symm
    · by_cases h1 : (n + 1) % 32 = 31
      · rw [outsAt0_C m c ⟨n + 1, hn⟩ h0 h1]
        dsimp only
        refine (Cases.column_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩)
          (outsAt0 m c n (Nat.lt_of_succ_lt hn)).2).trans ?_
        rw [ih]
        funext y
        obtain ⟨r, z, rfl⟩ : ∃ (r : Fin 128) (z : Fin 1), y = ix2 r z := ⟨y 0, y 1, eq_ix2 y⟩
        refine (store_apply m c ⟨n + 1, hn⟩ _ r z).trans ?_
        exact (run_step (fun p => rowTotN (wts m c) (refw m c) (p * 128 + r.val)) n h0).symm
      · rw [outsAt0_B m c ⟨n + 1, hn⟩ h0 h1]
        dsimp only
        refine (Cases.column_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩)
          (outsAt0 m c n (Nat.lt_of_succ_lt hn)).2).trans ?_
        rw [ih]
        funext y
        obtain ⟨r, z, rfl⟩ : ∃ (r : Fin 128) (z : Fin 1), y = ix2 r z := ⟨y 0, y 1, eq_ix2 y⟩
        refine (store_apply m c ⟨n + 1, hn⟩ _ r z).trans ?_
        exact (run_step (fun p => rowTotN (wts m c) (refw m c) (p * 128 + r.val)) n h0).symm

/-- At the last point of a core's run the tile holds, at every position, the core's share of the loss. -/
theorem tile_eq (c : Dev nD) (t : Fin cfg0.N) (h1 : t.val % 32 = 31) :
    (outsAt0 m c t.val t.isLt).1 = fun _ => coreTot (wts m c) (refw m c) (t.val / 32) := by
  have h0 : ¬t.val % 32 = 0 := by omega
  have hcol := column_eq m c t.val t.isLt
  rw [outsAt0_C m c t h0 h1] at hcol ⊢
  dsimp only at hcol ⊢
  refine (Cases.tile_last c (grid0.coords t) (ms0_0 t) (hs0_0 t) (ms0_1 t) (hs0_1 t) (ms0_2 t) (hs0_2 t) scM0_0 (Memref.isWhole_whole _) _ _ (iblk m c 0 t) (iblk m c 1 t) _).trans ?_
  rw [← Cases.column_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _, hcol]
  funext j
  refine (Pay.pay3_apply _ j).trans ?_
  unfold coreTot
  refine Finset.sum_congr rfl fun r _ => ?_
  exact run_full (fun p => rowTotN (wts m c) (refw m c) (p * 128 + r.val)) t.val h1

end Cert.KernelIdeal.Acc

end
-- ==== Proof.KernelResult.lean ====
/-
  The kernel's result: zero plus the two cores' shares of the loss.

  The region's output array has one (8, 128) tile per core; the last point of core `i`'s run writes tile `i`, every
  position of it holding the core's share. The two tiles cover the array. After the region the program takes
  position (0, 0) of each tile, and adds the two numbers to a zero initial value.
-/
import proofs.«123323_j25409026524030_2_alg».proof.Proof.Accumulate
import Idealize.ShloMosaic.Lib.Pipeline.Value
import Idealize.ShloMosaic.Lib.StableHlo.Run
import Idealize.ShloMosaic.Lib.ValueLayout

noncomputable section

namespace Cert.KernelIdeal.Result

open Cert.KernelIdeal Cert.KernelIdeal.Gen Cert.KernelIdeal.Acc Idealize.ShloMosaic Idealize.ShloMosaic.TcCoe Idealize.SL.Sem
open Idealize.ShloMosaic.ValueIdx Cert.Dale Finset
open Idealize.ShloMosaic.Pipeline (Dat)

variable (m : (ℓ : Loc nD τ sig) → Buf (Elt Ideal) ℓ) (ρ : Dev nD → PrngReg)

/-- The region's output array after the run: tile `i` holds core `i`'s share at every position. -/
def tiles (c : Dev nD) : Buf (Elt Ideal) ((c : Thread nD τ).loc main_v0) :=
  fun i => coreTot (wts m c) (refw m c) (i 0).val

/-- What a flushing point writes back is its tile of that array. -/
theorem flushed_eq (c : Dev nD) (t : Fin cfg0.N) (hf : (cfg0.win 2).flush t = true) :
    (dats m 0 c).flushed 2 t = ((cfg0.win 2).blk t).view.read (Elt Ideal) (tiles m c) := by
  have h1 : t.val % 32 = 31 := (flush0_2 t).mp hf
  obtain ⟨-, -, -, -, e4, -, -⟩ := idx_facts t
  show (cfg0.win 2).cut (grid0.coords t) ((dats m 0 c).after 2 t) = _
  rw [after0_2, tile_eq m c t h1]
  funext j
  show coreTot (wts m c) (refw m c) (t.val / 32) = tiles m c (((cfg0.win 2).blk t).view.emb j)
  unfold tiles
  congr 1
  show t.val / 32 = win0_2.index t 0 * 1 + 1 * (j 0).val
  have hj : (j 0).val < 1 := (j 0).isLt
  rw [e4]; omega

/-- An index of the output array is in point `t`'s tile iff each coordinate is in the tile's range on its axis. -/
theorem mem_tile (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Every index of the output array is in the tile some flushing point writes: tile `i` by point `32·i + 31`. -/
theorem covered (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 64 := N_0
  have ht : (i 0).val * 32 + 31 < cfg0.N := by rw [hN]; omega
  obtain ⟨-, -, -, -, e4, e5, e6⟩ := idx_facts ⟨(i 0).val * 32 + 31, ht⟩
  refine ⟨⟨(i 0).val * 32 + 31, ht⟩, (flush0_2 _).mpr (by show ((i 0).val * 32 + 31) % 32 = 31; omega), ?_⟩
  rw [mem_tile]
  intro a
  match a with
  | ⟨0, _⟩ =>
    show win0_2.index ⟨(i 0).val * 32 + 31, ht⟩ 0 * 1 ≤ (i 0).val ∧ (i 0).val < win0_2.index ⟨(i 0).val * 32 + 31, ht⟩ 0 * 1 + 1
    rw [e4]; show ((i 0).val * 32 + 31) / 32 * 1 ≤ (i 0).val ∧ (i 0).val < ((i 0).val * 32 + 31) / 32 * 1 + 1; omega
  | ⟨1, _⟩ =>
    show win0_2.index ⟨(i 0).val * 32 + 31, ht⟩ 1 * 8 ≤ (i 1).val ∧ (i 1).val < win0_2.index ⟨(i 0).val * 32 + 31, ht⟩ 1 * 8 + 8
    rw [e5]; omega
  | ⟨2, _⟩ =>
    show win0_2.index ⟨(i 0).val * 32 + 31, ht⟩ 2 * 128 ≤ (i 2).val ∧ (i 2).val < win0_2.index ⟨(i 0).val * 32 + 31, ht⟩ 2 * 128 + 128
    rw [e6]; omega

/-- So the output array ends holding the tiles. -/
theorem final (c : Dev nD) : (dats m 0 c).arrAt 2 cfg0.N = tiles m c :=
  (dats m 0 c).arrAt_eq_of_cover 2 (tiles m c) (flushed_eq m c) covered

/-- The program's result after the lines that follow the region. -/
theorem tail_eq (c : Dev nD) :
    Pipeline.afterTail₀ cfgs (dats m) 0 (V0 m) [hostOps1] c main_v3
      = Host.reduceAdd (F := Ideal) (shapeCast S2 (extractStridedSlice S2x1x1 ![0, 0, 0] (tiles m c) slices_S2x8x128_S2x1x1_0_0_0) shapeCasts_S2x1x1_S2)
          (constant (F := Ideal) S_ .f32 0x00000000#32) reducesTo_S2_S_d0 h_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v0)
      = tiles m c := (Pipeline.withArrays_arr spec0 launch0.win.arr_inj c _ _ 2).trans (final m c)
  rw [e]
  rfl

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The result at its one index: the zero the final sum starts from, plus the two cores' shares — the loss. -/
theorem result_apply (c : Dev nD) (i : S_.Idx) :
    Host.reduceAdd (F := Ideal) (shapeCast S2 (extractStridedSlice S2x1x1 ![0, 0, 0] (tiles m c) slices_S2x8x128_S2x1x1_0_0_0) shapeCasts_S2x1x1_S2)
        (constant (F := Ideal) S_ .f32 0x00000000#32) reducesTo_S2_S_d0 h_S_ i
      = Ideal.ofBits .f32 0x00000000#32 + total (wts m c) (refw m c) := by
  simp only [Host.reduceAdd, Ideal.hostReduceAdd_def]
  refine (Ideal.hostReduceAdd_total reducesTo_S2_S_d0 (fun b => b.elim0) _ _ i).trans ?_
  refine congrArg (Ideal.ofBits .f32 0x00000000#32 + ·) ?_
  rw [sum_idx1, ← cores_total]
  refine Finset.sum_congr rfl fun (a : Fin 2) _ => ?_
  refine (shapeCast_apply _ shapeCasts_S2x1x1_S2 (ix1 a) (ix3 a (0 : Fin 1) (0 : Fin 1)) ?_).trans ?_
  · rw [Shape.rowMajor_val_three, Shape.rowMajor_val_one]
    show (a.val * 1 + 0) * 1 + 0 = a.val
    omega
  refine (extractStridedSlice_apply _ _ slices_S2x8x128_S2x1x1_0_0_0 (ix3 a (0 : Fin 1) (0 : Fin 1))
    (ix3 a (0 : Fin 8) (0 : Fin 128)) (fun ax => ?_)).trans ?_
  · match ax with
    | ⟨0, _⟩ => show a.val = 0 + a.val; omega
    | ⟨1, _⟩ => rfl
    | ⟨2, _⟩ => rfl
  rfl

/-- The kernel's run, read: the result at zero plus the loss of the argument arrays, the arguments unchanged. -/
theorem run : θ_run defs (onTc (τ := τ) (main (F := Ideal))) ⟨m, fun _ => 0, ρ⟩ fun r => ∀ c : Dev nD,
      r.2.mem ((c.tc : Thread nD τ).loc main_v3) = (fun _ => Ideal.ofBits .f32 0x00000000#32 + total (wts m c) (refw m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (by decide)).trans ((tail_eq m c).trans (funext fun i => result_apply m c i)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefRead.lean ====
/-
  The reference program's result over the extended reals: zero plus the loss.

  The reference multiplies the weights by `½·w − (1 − ½)·sign v` entry by entry and sums everything from a zero
  initial value; `1 − ½` is `½`, so each entry is the same contribution the kernel adds.
-/
import proofs.«123323_j25409026524030_2_alg».proof.Defs
import proofs.«123323_j25409026524030_2_alg».proof.Proof.Gen.ReferenceIdeal.Run
import proofs.«123323_j25409026524030_2_alg».proof.Proof.Gen.ReferenceIdeal.Read
import proofs.«123323_j25409026524030_2_alg».proof.Proof.Totals

noncomputable section

namespace Cert.ReferenceIdeal.RefValue

open Cert.ReferenceIdeal Cert.ReferenceIdeal.Gen Cert.ReferenceIdeal.Read Idealize.ShloMosaic Cert.Dale

/-- The reference's result at its one index: the zero it starts from plus the loss of its two arguments. -/
theorem result_apply (x0 x1 : (⟨S8192x8192, .f32⟩ : BufTy).Contents (Elt Ideal)) (i : S_.Idx) :
    val_main_v8 (F := Ideal) x0 x1 i = Ideal.ofBits .f32 0x00000000#32 + total x0 x1 := by
  rw [val_main_v8_apply]
  refine congrArg (Ideal.ofBits .f32 0x00000000#32 + ·) ?_
  unfold total
  refine Finset.sum_congr rfl fun j _ => ?_
  rw [val_main_v7_apply, val_main_v6_apply, val_main_v2_apply, val_main_v5_apply, val_main_v1_apply, val_main_v4_apply,
    val_main_v0_apply, val_main_cst_apply, val_main_v3_apply, val_main_cst_0_apply, val_main_cst_1_apply]
  exact ref_entry (x0 j) (x1 j)

end Cert.ReferenceIdeal.RefValue

end
-- ==== Proof.lean ====
/-
  The kernel and its reference compute the same loss over the extended reals.

  The loss of a weight array `w` against a reference array `v`, both 8192 × 8192, is the sum over every entry of
  `w · (½·w − ½·sign v)`. The reference multiplies entry by entry and sums everything at once, from zero. The kernel
  walks the rows in 64 blocks of 128, two cores taking 32 blocks each: at each block it adds, row by row, the block's
  row sums into a 128-entry column it carries along; at the end of its run a core adds the column's entries into one
  number, and the program adds the two cores' numbers, from zero.

  Both results are zero plus the same finite sum taken in two groupings (Totals: `cores_total`), and addition on the
  extended reals is commutative and associative, so the precondition is never opened. The two spellings of the
  contribution agree entry by entry (Entry): the kernel's `sign` — one with the sign bit of `v` where `|v| > 0`, else
  `v` — is `sign` at every extended real, and the reference's `1 − ½` is `½`.

  Payload reads the body's three stores at an index; Cases names what each control case leaves; Accumulate gives the
  carried column in closed form by induction on the grid point; KernelResult covers the output array by the two
  cores' tiles and reads the lines after the region; RefRead reads the reference.
-/
import proofs.«123323_j25409026524030_2_alg».proof.Defs
import proofs.«123323_j25409026524030_2_alg».proof.Proof.Gen.Kernel
import proofs.«123323_j25409026524030_2_alg».proof.Proof.Gen.Kernel.Frame
import proofs.«123323_j25409026524030_2_alg».proof.Proof.Gen.KernelIdeal
import proofs.«123323_j25409026524030_2_alg».proof.Proof.Gen.KernelIdeal.Frame
import proofs.«123323_j25409026524030_2_alg».proof.Proof.Gen.ReferenceIdeal
import proofs.«123323_j25409026524030_2_alg».proof.Proof.Gen.ReferenceIdeal.Run
import proofs.«123323_j25409026524030_2_alg».proof.Proof.Gen.ReferenceIdeal.Read
import proofs.«123323_j25409026524030_2_alg».proof.Proof.Gen.Pre_finite_inputs
import proofs.«123323_j25409026524030_2_alg».proof.Proof.KernelResult
import proofs.«123323_j25409026524030_2_alg».proof.Proof.RefRead
import Idealize.ShloMosaic.Adequacy
import Idealize.ShloMosaic.Init

noncomputable section

namespace Cert.Proof

open Idealize.ShloMosaic Idealize.SL.Sem Cert.Dale

/-- The kernel, word by word, runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: reading the sign bit as a comparison with zero. -/
theorem preserves : Cert.preserves_Kernel_KernelIdeal :=
  IdealRules.sign_bit.statement Cert.KernelIdeal.S128x8192 .f32

/-- Both programs end at zero plus the loss of the arguments they agree on. -/
theorem algebraic : Cert.algebraic_KernelIdeal_ReferenceIdeal := by
  intro m ρ m' ρ' _ hagree
  refine ⟨fun c => fun _ => Ideal.ofBits .f32 0x00000000#32
      + total (Cert.KernelIdeal.Acc.wts m c) (Cert.KernelIdeal.Acc.refw m c), Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq]
  funext i
  rw [Cert.ReferenceIdeal.RefValue.result_apply, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
